-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128x512 : Shape := ⟨3, ![512, 128, 512]⟩
abbrev S512x512 : Shape := ⟨2, ![512, 512]⟩
abbrev S512x128 : Shape := ⟨2, ![512, 128]⟩
abbrev S512 : Shape := ⟨1, ![512]⟩
abbrev S_ : Shape := ⟨0, ![]⟩

class Facts : Prop where
  bcast_S_S512x128x512 : S_.BroadcastsInDim S512x128x512 (![] : Fin 0 → Fin S512x128x512.rank)
  reducesTo_S512x128x512_S_d0_1_2 : S512x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512x512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S512x128x512 .f32) (main_arg1 : FVec F S512x512 .f32) (main_arg2 : IVec S512x128 1) (main_arg3 : FVec F S512x512 .f32) (main_arg4 : FVec F S512 .f32) (main_arg5 : FVec F S512x512 .f32) (main_arg6 : FVec F S512 .f32) : IVec S_ 1 :=
  let main_v0 : FVec F S512x128x512 .f32 := Host.absf main_arg0
  let main_cst : FVec F S_ .f32 := constant S_ .f32 0x7F800000#32
  let main_v1 : FVec F S512x128x512 .f32 := broadcastInDim S512x128x512 ![] bcast_S_S512x128x512 main_cst
  let main_v2 : IVec S512x128x512 1 := cmpf .olt main_v0 main_v1
  let main_c : IVec S_ 1 := constantI S_ 1 1#1
  let main_v3 : IVec S_ 1 := (fun x v => Host.reduce IntOp.andi x v reducesTo_S512x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_v13 main_v16
-- ==== Kernel.lean ====
abbrev S512x128x512 : Shape := ⟨3, ![512, 128, 512]⟩
abbrev S512x512 : Shape := ⟨2, ![512, 512]⟩
abbrev S512x128 : Shape := ⟨2, ![512, 128]⟩
abbrev S512 : Shape := ⟨1, ![512]⟩
abbrev S16x128x512 : Shape := ⟨3, ![16, 128, 512]⟩
abbrev S16x512 : Shape := ⟨2, ![16, 512]⟩
abbrev S16x128 : Shape := ⟨2, ![16, 128]⟩
abbrev S2048x512 : Shape := ⟨2, ![2048, 512]⟩
abbrev S1x512 : Shape := ⟨2, ![1, 512]⟩
abbrev S16x1x512 : Shape := ⟨3, ![16, 1, 512]⟩
abbrev S16x128x1 : Shape := ⟨3, ![16, 128, 1]⟩

abbrev nBuf : Space → Nat
  | .hbm => 12
  | .vmem => 14
  | .smem => 0
  | _ => 0

abbrev bufTy : (tb : Table) → Fin (tcTables nBuf tb) → BufTy
  | .hbm, ⟨0, _⟩ => ⟨S512x128x512, .f32⟩
  | .hbm, ⟨1, _⟩ => ⟨S512x512, .f32⟩
  | .hbm, ⟨2, _⟩ => ⟨S512x128, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x128, .f32⟩
  | .hbm, ⟨8, _⟩ => ⟨S512x512, .f32⟩
  | .hbm, ⟨9, _⟩ => ⟨S512x512, .f32⟩
  | .hbm, ⟨10, _⟩ => ⟨S512x128x512, .f32⟩
  | .hbm, ⟨11, _⟩ => ⟨S512x512, .f32⟩
  | .local _ .vmem, ⟨0, _⟩ => ⟨S16x128x512, .f32⟩
  | .local _ .vmem, ⟨1, _⟩ => ⟨S16x128x512, .f32⟩
  | .local _ .vmem, ⟨2, _⟩ => ⟨S16x512, .f32⟩
  | .local _ .vmem, ⟨3, _⟩ => ⟨S16x512, .f32⟩
  | .local _ .vmem, ⟨4, _⟩ => ⟨S16x128, .f32⟩
  | .local _ .vmem, ⟨5, _⟩ => ⟨S16x128, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S16x128x512, .f32⟩
  | .local _ .vmem, ⟨11, _⟩ => ⟨S16x128x512, .f32⟩
  | .local _ .vmem, ⟨12, _⟩ => ⟨S16x512, .f32⟩
  | .local _ .vmem, ⟨13, _⟩ => ⟨S16x512, .f32⟩
  | _, _ => ⟨S512x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S512x512_S512x512_1_0 : S512x512.Transposes [1, 0] S512x512
  inb_S16x128x512_S16x128x512_0_0_0 : ∀ a, (![0, 0, 0] : Fin 3 → Nat) a + S16x128x512.size a ≤ S16x128x512.size a
  h_S16x128x512 : 0 < S16x128x512.numel
  shapeCasts_S16x128x512_S2048x512 : S16x128x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  shapeCasts_S2048x512_S16x128x512 : S2048x512.ShapeCasts S16x128x512
  inb_S16x512_S16x512_0_0 : ∀ a, (![0, 0] : Fin 2 → Nat) a + S16x512.size a ≤ S16x512.size a
  h_S16x512 : 0 < S16x512.numel
  broadcasts_S1x512_S16x512 : S1x512.Broadcasts S16x512
  shapeCasts_S16x512_S16x1x512 : S16x512.ShapeCasts S16x1x512
  broadcasts_S16x1x512_S16x128x512 : S16x1x512.Broadcasts S16x128x512
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x128_S16x128x1 : S16x128.ShapeCasts S16x128x1
  broadcasts_S16x128x1_S16x128x512 : S16x128x1.Broadcasts S16x128x512
  reduces_S16x128x512_S16x512 : S16x128x512.Reduces [1] S16x512
  dot_S2048x512_S512x512_S2048x512_1_0_0_1_n_n_wf : DotDims.WF S2048x512 S512x512 S2048x512 [1] [0] [0] [1] [] []
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S512x128x512.size a
  hwx0_0 : ∀ i : grid0.Coords, EltTy.bits .f32 = 32 ∨ (Rect.block (s := S512x128x512) S16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S512x512.size a
  hwx0_1 : ∀ i : grid0.Coords, EltTy.bits .f32 = 32 ∨ (Rect.block (s := S512x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S512x128.size a
  hwx0_2 : ∀ i : grid0.Coords, EltTy.bits .f32 = 32 ∨ (Rect.block (s := S512x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128x512.size a ≤ S512x128x512.size a
  hwx0_7 : ∀ i : grid0.Coords, EltTy.bits .f32 = 32 ∨ (Rect.block (s := S512x128x512) S16x128x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S512x512.size a
  hwx0_8 : ∀ i : grid0.Coords, EltTy.bits .f32 = 32 ∨ (Rect.block (s := S512x512) S16x512.size (cc0_transform_8 i) (hinb0_8 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S16x128x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S16x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x128x512 : Shape := ⟨3, ![512, 128, 512]⟩
abbrev S512x512 : Shape := ⟨2, ![512, 512]⟩
abbrev S512x128 : Shape := ⟨2, ![512, 128]⟩
abbrev S512 : Shape := ⟨1, ![512]⟩
abbrev S1x1x512 : Shape := ⟨3, ![1, 1, 512]⟩
abbrev S1x512 : Shape := ⟨2, ![1, 512]⟩
abbrev S512x1x512 : Shape := ⟨3, ![512, 1, 512]⟩
abbrev S512x128x1 : Shape := ⟨3, ![512, 128, 1]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S512x128x512, .f32⟩
  | .hbm, ⟨1, _⟩ => ⟨S512x512, .f32⟩
  | .hbm, ⟨2, _⟩ => ⟨S512x128, .i1⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x128x512, .f32⟩
  | .hbm, ⟨8, _⟩ => ⟨S1x1x512, .f32⟩
  | .hbm, ⟨9, _⟩ => ⟨S512x128x512, .f32⟩
  | .hbm, ⟨10, _⟩ => ⟨S512x128x512, .f32⟩
  | .hbm, ⟨11, _⟩ => ⟨S512x512, .f32⟩
  | .hbm, ⟨12, _⟩ => ⟨S1x512, .f32⟩
  | .hbm, ⟨13, _⟩ => ⟨S512x512, .f32⟩
  | .hbm, ⟨14, _⟩ => ⟨S512x512, .f32⟩
  | .hbm, ⟨15, _⟩ => ⟨S512x1x512, .f32⟩
  | .hbm, ⟨16, _⟩ => ⟨S512x128x512, .f32⟩
  | .hbm, ⟨17, _⟩ => ⟨S512x128x512, .f32⟩
  | .hbm, ⟨18, _⟩ => ⟨S512x128x1, .i1⟩
  | .hbm, ⟨19, _⟩ => ⟨S_, .f32⟩
  | .hbm, ⟨20, _⟩ => ⟨S512x128x512, .i1⟩
  | .hbm, ⟨21, _⟩ => ⟨S512x128x512, .f32⟩
  | .hbm, ⟨22, _⟩ => ⟨S512x128x512, .f32⟩
  | .hbm, ⟨23, _⟩ => ⟨S_, .f32⟩
  | .hbm, ⟨24, _⟩ => ⟨S512x512, .f32⟩
  | _, _ => ⟨S512x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S512x128x512_0_1_2 : S1x1x512.BroadcastsInDim S512x128x512 (![0, 1, 2] : Fin 3 → Fin S512x128x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x1x512_0_2 : S512x512.BroadcastsInDim S512x1x512 (![0, 2] : Fin 2 → Fin S512x1x512.rank)
  bcast_S512x1x512_S512x128x512_0_1_2 : S512x1x512.BroadcastsInDim S512x128x512 (![0, 1, 2] : Fin 3 → Fin S512x128x512.rank)
  bcast_S512x128_S512x128x1_0_1 : S512x128.BroadcastsInDim S512x128x1 (![0, 1] : Fin 2 → Fin S512x128x1.rank)
  bcast_S512x128x1_S512x128x512_0_1_2 : S512x128x1.BroadcastsInDim S512x128x512 (![0, 1, 2] : Fin 3 → Fin S512x128x512.rank)
  bcast_S_S512x128x512 : S_.BroadcastsInDim S512x128x512 (![] : Fin 0 → Fin S512x128x512.rank)
  reducesTo_S512x128x512_S512x512_d1 : S512x128x512.ReducesTo [1] S512x512
  h_S_ : 0 < S_.numel
  dot_S512x128x512_S512x512_S512x128x512_2_1_01_0_n_n_wf : DotDims.WF S512x128x512 S512x512 S512x128x512 [2] [1] [0, 1] [0] [] []
  dot_S512x512_S512x512_S512x512_1_1_0_0_n_n_wf : DotDims.WF S512x512 S512x512 S512x512 [1] [1] [0] [0] [] []

variable [Facts₀]

def dot_S512x128x512_S512x512_S512x128x512_2_1_01_0_n_n : DotDims S512x128x512 S512x512 S512x128x512 where
  lhsContracting := [2]
  rhsContracting := [1]
  lhsNonContracting := [0, 1]
  rhsNonContracting := [0]
  lhsBatch := []
  rhsBatch := []
  wf := dot_S512x128x512_S512x512_S512x128x512_2_1_01_0_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«106892_j22101901705855_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibKeepdims3.lean ====
/-
  Layout facts a reduction over the LAST axis of a three-axis array meets when its result is kept as a trailing
  unit axis and spread back, each read at an entry given by its coordinates: the sum along the last axis of an
  `[a, b, c]` array; an `[a, b]` array viewed as `[a, b, 1]` or as `[a, 1, b]`, and an `[a, 1]` array viewed as `[a, 1, 1]` or as `[a]`; and the
  three spreadings `[a, 1, 1] → [a, b, 1]`, `[a, b, 1] → [a, b, c]`, `[a, 1, c] → [a, b, c]`. They hold for any
  extents, and all but the sum for entries of any type.
-/
import Idealize.ShloMosaic.Lib.Pipeline.Value
import Idealize.ShloMosaic.Lib.ValueIdx
import Idealize.ShloMosaic.PureOps.Ideal.Laws

noncomputable section

open scoped BigOperators

namespace Cert.LibKeepdims3

open Idealize.ShloMosaic Idealize.ShloMosaic.ValueIdx

variable {α : Type}

/-- An `[a, b]` array cast to `[a, b, 1]` reads, at `(i, j, u)`, the operand at `(i, j)`: the same row-major position. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, 1]` array cast to `[a, 1, 1]` reads, at `(i, u, v)`, the operand at `(i, u)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i u) :=
  shapeCast_apply x h _ _ (by
    have hv : v.val = 0 := by omega
    rw [Shape.rowMajor_val_two, Shape.rowMajor_val_three]
    show i.val * 1 + u.val = (i.val * 1 + u.val) * 1 + v.val
    omega)

/-- An `[a, 1]` array cast to `[a]` reads, at `i`, the operand's one entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, b]` array cast to `[a, 1, b]` reads, at `(i, u, j)`, the operand at `(i, j)`: the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, 1]` array spread to `[a, b, 1]` reads, at `(i, j, u)`, the operand's one entry of row `i`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, b, 1]` array spread to `[a, b, c]` reads, at `(i, j, k)`, the operand's one entry at `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array spread to `[a, b, c]` reads, at `(i, j, k)`, the operand at `(i, 0, k)`: the same for every `j`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- Over the extended reals, the sum of an `[a, b, c]` array along its last axis, started from the zero word, is at
    `(i, j)` the sum over `k` of the entries `(i, j, k)`. -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext ax
  apply Fin.ext
  match ax with
  | ⟨0, _⟩ => rfl
  | ⟨1, _⟩ => rfl
  | ⟨2, _⟩ => rfl

/-- The same sum with the accumulator's side condition typed as a printed program's evidence for it really is (the
    zero word equal to itself), so that the statement is found by rewriting inside a printed value. -/
theorem multiReduction_add_last_printed {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_last_apply src h hφ hacc i j

/-- The sum of an `[a, b]` array along its second axis, at row `i`, with the side condition typed as printed. -/
theorem multiReduction_add_rows_printed {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims3

end
-- ==== Proof.LibMiddleAxis.lean ====
/-
  A reduction over the MIDDLE axis of a three-axis array `[a, b, c]` into `[a, c]`: over the result index `(i, k)` the
  source index whose coordinate on the reduced axis is `n` is `(i, n, k)`.  It holds for any extents; with it a maximum, a
  minimum or a sum over that axis, read at `(i, k)`, ranges over the entries `(i, n, k)`, `n < b`.
-/
import Idealize.ShloMosaic.PureOps.Reduce
import Idealize.ShloMosaic.Lib.ValueIdx

noncomputable section

namespace Cert.LibMiddleAxis

open Idealize.ShloMosaic Idealize.ShloMosaic.ValueIdx

/-- Inserting the coordinate `n` on axis 1 over the result index `(i, k)` gives `(i, n, k)`. -/
theorem lift_middle {a b c : ℕ} (h : (⟨3, ![a, b, c]⟩ : Shape).Reduces [(1 : Fin 3)] ⟨2, ![a, c]⟩) (i : Fin a) (k : Fin c)
    (n : Fin ((⟨3, ![a, b, c]⟩ : Shape).size 1)) : h.lift (ix2 i k) n = ix3 i (n : Fin b) k := by
  funext ax
  apply Fin.ext
  refine (h.lift_val (ix2 i k) n ax).trans ?_
  match ax with
  | ⟨0, _⟩ => rfl
  | ⟨1, _⟩ => rfl
  | ⟨2, _⟩ => rfl

end Cert.LibMiddleAxis

end
-- ==== Proof.KernelEntries.lean ====
/-
  What the kernel's body computes on one block, entry by entry over the extended reals.

  The body works on 16 batch rows at a time.  It views the block of hidden states [16, 128, 512] as a matrix of
  16 · 128 = 2048 rows (row b · 128 + a is the old (b, a)), multiplies it by the transposed weight matrix, adds the bias
  row, and views the product as [16, 128, 512] again; so at (b, a, o) the value is Σ_k hidden (b, a, k) · Wt (k, o) + bias (o).
  The context rows [16, 512] go through the same layer with the other weights, and the result, given a unit agent axis and
  spread along it, multiplies the first: that product is the first stored value.

  For the second stored value the availability numbers [16, 128] are given a unit channel axis and spread along it; the
  product above is multiplied by them, (1 − them) · fill is added, and the maximum over the agent axis is taken from −∞.
  A change of float format is the identity on extended reals, and a maximum over one axis at (b, o) ranges over the
  entries (b, n, o).
-/
import proofs.«106892_j22101901705855_2_alg».proof.Proof.Gen.KernelIdeal.Skeleton
import proofs.«106892_j22101901705855_2_alg».proof.Proof.LibPlainDotFormats
import proofs.«106892_j22101901705855_2_alg».proof.Proof.LibFlatten3
import proofs.«106892_j22101901705855_2_alg».proof.Proof.LibRowLayout
import proofs.«106892_j22101901705855_2_alg».proof.Proof.LibKeepdims3
import proofs.«106892_j22101901705855_2_alg».proof.Proof.LibMiddleAxis
import Idealize.ShloMosaic.Lib.Pipeline.Value

noncomputable section

namespace Cert.Gating.Kernel

open Cert.KernelIdeal Cert.KernelIdeal.Gen Idealize.ShloMosaic Idealize.ShloMosaic.ValueIdx

/-- The 2048-row product contracts the second axis of its left operand with the first of its right: a plain product. -/
theorem plainRows : Cert.LibPlainDot.Plain dot_S2048x512_S512x512_S2048x512_1_0_0_1_n_n := ⟨rfl, rfl, rfl, rfl, rfl, rfl⟩
/-- So does the 16-row product. -/
theorem plainCtx : Cert.LibPlainDot.Plain dot_S16x512_S512x512_S16x512_1_0_0_1_n_n := ⟨rfl, rfl, rfl, rfl, rfl, rfl⟩

/-- A linear layer on 2048 rows: the product into zero plus the bias row spread down the rows, at (ρ, o). -/
theorem layerRows_at (l : FVec Ideal S2048x512 .bf16) (r : FVec Ideal S512x512 .bf16) (bias : Vec Ideal S512 .f32)
    (ρ : Fin 2048) (o : Fin 512) :
    addf (matmul dot_S2048x512_S512x512_S2048x512_1_0_0_1_n_n none l r (constant S2048x512 .f32 0x00000000#32))
        (broadcastTo S2048x512 (shapeCast S1x512 bias shapeCasts_S512_S1x512) broadcasts_S1x512_S2048x512) (ix2 ρ o)
      = (∑ k : Fin 512, l (ix2 ρ k) * r (ix2 k o)) + bias (ix1 o) := by
  show matmul dot_S2048x512_S512x512_S2048x512_1_0_0_1_n_n none l r (constant S2048x512 .f32 0x00000000#32) (ix2 ρ o)
      + broadcastTo S2048x512 (shapeCast S1x512 bias shapeCasts_S512_S1x512) broadcasts_S1x512_S2048x512 (ix2 ρ o) = _
  exact congrArg₂ (· + ·) (plainRows.matmul_zero_apply_formats none l r ρ o)
    ((Cert.LibRowLayout.broadcastTo_1b_ab_apply _ broadcasts_S1x512_S2048x512 ρ o).trans
      (Cert.LibRowLayout.shapeCast_b_1b_apply bias shapeCasts_S512_S1x512 (0 : Fin 1) o))

/-- The same layer on 16 rows, at (b, o). -/
theorem layerCtx_at (l : FVec Ideal S16x512 .bf16) (r : FVec Ideal S512x512 .bf16) (bias : Vec Ideal S512 .f32)
    (b : Fin 16) (o : Fin 512) :
    addf (matmul dot_S16x512_S512x512_S16x512_1_0_0_1_n_n none l r (constant S16x512 .f32 0x00000000#32))
        (broadcastTo S16x512 (shapeCast S1x512 bias shapeCasts_S512_S1x512) broadcasts_S1x512_S16x512) (ix2 b o)
      = (∑ k : Fin 512, l (ix2 b k) * r (ix2 k o)) + bias (ix1 o) := by
  show matmul dot_S16x512_S512x512_S16x512_1_0_0_1_n_n none l r (constant S16x512 .f32 0x00000000#32) (ix2 b o)
      + broadcastTo S16x512 (shapeCast S1x512 bias shapeCasts_S512_S1x512) broadcasts_S1x512_S16x512 (ix2 b o) = _
  exact congrArg₂ (· + ·) (plainCtx.matmul_zero_apply_formats none l r b o)
    ((Cert.LibRowLayout.broadcastTo_1b_ab_apply _ broadcasts_S1x512_S16x512 b o).trans
      (Cert.LibRowLayout.shapeCast_b_1b_apply bias shapeCasts_S512_S1x512 (0 : Fin 1) o))

/-- THE FIRST STORED VALUE at (b, a, o): the feature layer of hidden row (b, a) times the context layer of row b, the
    weights read as the body finds them (already transposed: entry (k, o)). -/
theorem pay2_at (v0 : Vec Ideal S16x128x512 .f32) (v2 : Vec Ideal S512x512 .f32) (v7 : Vec Ideal S512 .f32)
    (v12 : Vec Ideal S16x512 .f32) (v14 : Vec Ideal S512x512 .f32) (v18 : Vec Ideal S512 .f32)
    (b : Fin 16) (a : Fin 128) (o : Fin 512) :
    k0_pay2 (F := Ideal) v0 v2 v7 v12 v14 v18 (ix3 b a o)
      = ((∑ k : Fin 512, v0 (ix3 b a k) * v2 (ix2 k o)) + v7 (ix1 o))
        * ((∑ k : Fin 512, v12 (ix2 b k) * v14 (ix2 k o)) + v18 (ix1 o)) := by
  have hρ : b.val * 128 + a.val < 2048 := by have := b.isLt; have := a.isLt; omega
  unfold k0_pay2
  refine (mulf_apply _ _ _).trans (congrArg₂ (· * ·) ?_ ?_)
  · -- the 2048-row matrix viewed as [16, 128, 512] again: row b · 128 + a
    refine (Cert.LibFlatten3.shapeCast_mc_abc_apply _ shapeCasts_S2048x512_S16x128x512 b a o ⟨b.val * 128 + a.val, hρ⟩ rfl).trans ?_
    refine (layerRows_at _ _ v7 ⟨b.val * 128 + a.val, hρ⟩ o).trans ?_
    refine congrArg (· + v7 (ix1 o)) (Finset.sum_congr rfl fun k _ => congrArg₂ (· * ·) ?_ ?_)
    · exact (truncf_apply (ψ := .bf16) _ bitsLt_bf16_f32 _).trans
        (Cert.LibFlatten3.shapeCast_abc_mc_apply v0 shapeCasts_S16x128x512_S2048x512 b a k ⟨b.val * 128 + a.val, hρ⟩ rfl)
    · exact (truncf_apply (ψ := .bf16) _ bitsLt_bf16_f32 _).trans (congrFun (shapeCast_self v2 shapeCasts_S512x512_S512x512) (ix2 k o))
  · -- the context layer, given a unit agent axis and spread along it
    refine (Cert.LibKeepdims3.broadcastTo_a1c_abc_apply _ broadcasts_S16x1x512_S16x128x512 b a o).trans ?_
    refine (Cert.LibKeepdims3.shapeCast_ab_a1b_apply _ shapeCasts_S16x512_S16x1x512 b (0 : Fin 1) o).trans ?_
    refine (layerCtx_at _ _ v18 b o).trans ?_
    refine congrArg (· + v18 (ix1 o)) (Finset.sum_congr rfl fun k _ => congrArg₂ (· * ·) ?_ ?_)
    · exact truncf_apply (ψ := .bf16) _ bitsLt_bf16_f32 _
    · exact (truncf_apply (ψ := .bf16) _ bitsLt_bf16_f32 _).trans (congrFun (shapeCast_self v14 shapeCasts_S512x512_S512x512) (ix2 k o))

/-- The availability numbers, given a unit channel axis and spread along it, at (b, a, o). -/
theorem spreadMask_at (v26 : Vec Ideal S16x128 .f32) (b : Fin 16) (a : Fin 128) (u : Fin 1) :
    shapeCast S16x128x1 (shapeCast S16x128 v26 shapeCasts_S16x128_S16x128) shapeCasts_S16x128_S16x128x1 (ix3 b a u)
      = v26 (ix2 b a) :=
  (Cert.LibKeepdims3.shapeCast_ab_ab1_apply _ shapeCasts_S16x128_S16x128x1 b a u).trans
    (congrFun (shapeCast_self v26 shapeCasts_S16x128_S16x128) (ix2 b a))

/-- THE MASKED VALUE at (b, a, o): the first stored value times the availability number, plus (1 − that number) · fill. -/
theorem pay3_at (v0 : Vec Ideal S16x128x512 .f32) (v2 : Vec Ideal S512x512 .f32) (v7 : Vec Ideal S512 .f32)
    (v12 : Vec Ideal S16x512 .f32) (v14 : Vec Ideal S512x512 .f32) (v18 : Vec Ideal S512 .f32) (v26 : Vec Ideal S16x128 .f32)
    (b : Fin 16) (a : Fin 128) (o : Fin 512) :
    k0_pay3 (F := Ideal) v0 v2 v7 v12 v14 v18 v26 (ix3 b a o)
      = k0_pay2 (F := Ideal) v0 v2 v7 v12 v14 v18 (ix3 b a o) * v26 (ix2 b a)
        + (Ideal.ofBits .f32 0x3F800000#32 - v26 (ix2 b a)) * Ideal.ofBits .f32 0xFF7FFFFF#32 := by
  unfold k0_pay3
  refine (addf_apply _ _ _).trans (congrArg₂ (· + ·) ?_ ?_)
  · refine (mulf_apply _ _ _).trans (congrArg (k0_pay2 (F := Ideal) v0 v2 v7 v12 v14 v18 (ix3 b a o) * ·) ?_)
    exact (Cert.LibKeepdims3.broadcastTo_ab1_abc_apply _ broadcasts_S16x128x1_S16x128x512 b a o).trans
      (spreadMask_at v26 b a 0)
  · refine (Cert.LibKeepdims3.broadcastTo_ab1_abc_apply _ broadcasts_S16x128x1_S16x128x512 b a o).trans ?_
    refine (mulf_apply _ _ _).trans (congrArg₂ (· * ·) ?_ rfl)
    exact (subf_apply _ _ _).trans (congrArg₂ (· - ·) rfl (spreadMask_at v26 b a 0))

/-- THE SECOND STORED VALUE at (b, o): the maximum over the agents n of the masked value at (b, n, o), started from −∞. -/
theorem pay1_at (v36 : FVec Ideal S16x128x512 .f32) (b : Fin 16) (o : Fin 512) :
    k0_pay1 (F := Ideal) v36 (ix2 b o)
      = (Finset.univ : Finset (Fin 128)).fold max (Ideal.ofBits .f32 0xFF800000#32) (fun n => v36 (ix3 b n o)) := by
  unfold k0_pay1
  dsimp only
  refine (Ideal.multiReduction_maximumf_single v36 0xFF800000#32 reduces_S16x128x512_S16x512 (.inl rfl) rfl (ix2 b o)).trans ?_
  have hsrc : (v36 ∘ reduces_S16x128x512_S16x512.lift (ix2 b o)) = fun n : Fin 128 => v36 (ix3 b n o) :=
    funext fun n => congrArg v36 (Cert.LibMiddleAxis.lift_middle reduces_S16x128x512_S16x512 b o n)
  rw [hsrc]
  rfl

end Cert.Gating.Kernel

end
-- ==== Proof.LibArithMask.lean ====
/-
  Masking by arithmetic on a bit read as a number, over the extended reals.

  A kernel that may not select on a one-bit vector can mask by arithmetic instead: with the bit read as the number
  m ∈ {0, 1} it computes  e · m + (1 − m) · N,  where a reference writes "e where the bit is set, else N".  The two agree
  for ALL extended reals e and N, infinities included: with m = 1 the arithmetic is e · 1 + 0 · N = e, with m = 0 it is
  e · 0 + 1 · N = N, and on the extended reals x · 1 = x, x · 0 = 0 · x = 0 and x + 0 = 0 + x = x have no exception
  (0 · ±∞ is 0 there).  So no finiteness of e or of N is needed.  The constant 1 enters as the single-precision word
  0x3F800000, which denotes the number one.
-/
import Idealize.ShloMosaic.PureOps.Ideal.Laws
import Idealize.ShloMosaic.Lib.ValueIdx

noncomputable section

namespace Cert.LibArithMask

open Idealize.ShloMosaic Idealize.ShloMosaic.ValueIdx

/-- The single-precision word of 1.0 denotes the number one. -/
theorem one_word : Ideal.ofBits .f32 0x3F800000#32 = 1 := by
  simp [Ideal.ofBits, Ideal.ieee, -EReal.coe_mul]; norm_num

/-- A one-bit word read unsigned is the number 1 when it is the set bit … -/
theorem toNat_one : (((1#1 : BitVec 1).toNat : ℝ) : EReal) = 1 := by norm_num

/-- … and the number 0 when it is the clear bit. -/
theorem toNat_zero : (((0#1 : BitVec 1).toNat : ℝ) : EReal) = 0 := by norm_num

/-- THE MASK LAW.  With the bit `w` read as the number 0 or 1, the arithmetic mask `e · w + (1 − w) · N` is the
    selection "`e` if the bit is set, else `N`", for all extended reals `e`, `N`. -/
theorem mask_law (w : BitVec 1) (e N : EReal) :
    e * ((w.toNat : ℝ) : EReal) + (Ideal.ofBits .f32 0x3F800000#32 - ((w.toNat : ℝ) : EReal)) * N
      = Scalar.select w e N := by
  rw [one_word]
  by_cases h : w = 1#1
  · subst h
    rw [select_one]
    have h11 : (1 : EReal) - 1 = 0 := by rw [← EReal.coe_one, ← EReal.coe_sub, sub_self, EReal.coe_zero]
    rw [toNat_one, h11, mul_one, zero_mul, add_zero]
  · have h0 := eq_zero_of_ne_one h
    subst h0
    rw [select_zero, toNat_zero, mul_zero, sub_zero, one_mul, zero_add]

/-- The same law with the number written on the left of the masked value: `w · e + (1 − w) · N`. -/
theorem mask_law_left (w : BitVec 1) (e N : EReal) :
    ((w.toNat : ℝ) : EReal) * e + (Ideal.ofBits .f32 0x3F800000#32 - ((w.toNat : ℝ) : EReal)) * N
      = Scalar.select w e N := by
  rw [mul_comm]; exact mask_law w e N

end Cert.LibArithMask

end
-- ==== Proof.Spec.lean ====
/-
  Context gating, as two functions of the seven input arrays, entry by entry over the extended reals.

  For batch row `b`, agent `a` and output channel `o`:
    feature (b, a, o) = Σ_k hidden (b, a, k) · W_f (o, k) + b_f (o)        (a linear layer over the hidden axis)
    ctxLayer (b, o)       = Σ_k context (b, k) · W_c (o, k) + b_c (o)          (a linear layer of the context row)
    gated (b, a, o)   = feature (b, a, o) · ctxLayer (b, o)                     (the first result)
  and the second result is, for each (b, o), the maximum over the agents `a` of the gated value where the agent is
  available and of a fixed finite fill value where it is not, the maximum being started from −∞.

  One program spells "where available, else the fill" as a selection on the availability bit, the other as arithmetic
  on the bit turned into the number 0 or 1:  e · m + (1 − m) · fill.  The two agree for every extended real `e`:
  with m = 1 the arithmetic is e · 1 + 0 · fill = e, with m = 0 it is e · 0 + 1 · fill = fill, and on the extended
  reals x · 1 = x, x · 0 = 0 · x = 0 and x + 0 = 0 + x = x hold with no exception at the infinities (the mask law,
  LibArithMask.lean).  So no finiteness of the inputs is used.
-/
import Idealize.ShloMosaic.PureOps.Ideal.Laws
import Idealize.ShloMosaic.Lib.ValueIdx
import proofs.«106892_j22101901705855_2_alg».proof.Proof.LibArithMask

noncomputable section

namespace Cert.Gating

open Idealize.ShloMosaic Idealize.ShloMosaic.ValueIdx

/-- The hidden states and the gated embeddings: batch × agents × channels. -/
abbrev SH : Shape := ⟨3, ![512, 128, 512]⟩
/-- The context rows, both weight matrices and the second result: 512 × 512. -/
abbrev SM : Shape := ⟨2, ![512, 512]⟩
/-- The availability bits: batch × agents. -/
abbrev SA : Shape := ⟨2, ![512, 128]⟩
/-- The two bias vectors. -/
abbrev SV : Shape := ⟨1, ![512]⟩

/-- The finite value an unavailable agent contributes to the maximum (the most negative finite single-precision number). -/
def fill : EReal := Ideal.ofBits .f32 0xFF7FFFFF#32
/-- What the maximum over the agents is started from: −∞. -/
def bottom : EReal := Ideal.ofBits .f32 0xFF800000#32

section
variable (hid : SH.Idx → EReal) (ce : SM.Idx → EReal) (av : SA.Idx → BitVec 1)
  (Wf : SM.Idx → EReal) (bf : SV.Idx → EReal) (Wc : SM.Idx → EReal) (bc : SV.Idx → EReal)

/-- The feature layer: row (b, a) of the hidden states against row `o` of `W_f`, plus the bias. -/
def feature (b : Fin 512) (a : Fin 128) (o : Fin 512) : EReal :=
  (∑ k : Fin 512, hid (ix3 b a k) * Wf (ix2 o k)) + bf (ix1 o)

/-- The context layer: row `b` of the context embedding against row `o` of `W_c`, plus the bias. -/
def ctxLayer (b o : Fin 512) : EReal :=
  (∑ k : Fin 512, ce (ix2 b k) * Wc (ix2 o k)) + bc (ix1 o)

/-- The gated embedding at (b, a, o). -/
def gated (b : Fin 512) (a : Fin 128) (o : Fin 512) : EReal :=
  feature hid Wf bf b a o * ctxLayer ce Wc bc b o

/-- The first result, as one array. -/
def embeddings : SH.Idx → EReal := fun i => gated hid ce Wf bf Wc bc (i 0) (i 1) (i 2)

/-- What agent `a` contributes to the maximum at (b, o): its gated value if it is available, the fill if not. -/
def offered (b : Fin 512) (a : Fin 128) (o : Fin 512) : EReal :=
  Scalar.select (av (ix2 b a)) (gated hid ce Wf bf Wc bc b a o) fill

/-- The second result: at (b, o) the maximum over the 128 agents of what each offers, started from −∞. -/
def contextOut : SM.Idx → EReal := fun j =>
  (Finset.univ : Finset (Fin 128)).fold max bottom (fun a => offered hid ce av Wf bf Wc bc (j 0) a (j 1))

end

end Cert.Gating

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.Blocks.lean ====
/-
  From the kernel's blocks to its two result arrays.

  The grid has 32 points; point t handles the 16 batch rows 16·t … 16·t + 15.  At point t the hidden states, the context
  rows and the availability numbers are read through blocks of 16 rows starting at row 16·t; both weight matrices and
  both bias vectors are read whole at every point.  Before the kernel runs, the availability bits are turned into the
  numbers 0 / 1 and both weight matrices are transposed, so the kernel finds W (o, k) at (k, o).

  Hence what point t writes back is, entry by entry, the specification's two functions read at batch row 16·t + b: the
  gated embedding for the first result; for the second, the maximum over the agents of  gated · m + (1 − m) · fill  with m
  the availability number, which the mask law turns into the selection the specification states.  The 32 blocks tile each
  result array (row r lies in block r / 16), so each array ends as the specification's function.
-/
import proofs.«106892_j22101901705855_2_alg».proof.Proof.Gen.KernelIdeal.Value
import proofs.«106892_j22101901705855_2_alg».proof.Proof.KernelEntries
import proofs.«106892_j22101901705855_2_alg».proof.Proof.Spec
import proofs.«106892_j22101901705855_2_alg».proof.Proof.LibJoinedRows
import Idealize.ShloMosaic.Lib.StableHlo.Run

set_option maxRecDepth 16384

noncomputable section

namespace Cert.Gating.Blocks

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.Gating

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arrays the host prepared before the kernel -/

/-- The availability numbers: each bit read as 0 or 1. -/
theorem V_avail (c : Dev nD) :
    (V m c main_v0 : S512x128.Idx → EReal)
      = (uitofp (F := Ideal) .f32 (m ((c : Thread nD τ).loc main_arg2) : IVec S512x128 1) : FVec Ideal S512x128 .f32) := by
  dsimp only [Gen.V, Gen.hostOps0]; after_results <;> rfl

/-- The feature weights, transposed. -/
theorem V_WfT (c : Dev nD) :
    (V m c main_v1 : S512x512.Idx → EReal)
      = transpose S512x512 [1, 0] (m ((c : Thread nD τ).loc main_arg3)) transposes_S512x512_S512x512_1_0 := by
  dsimp only [Gen.V, Gen.hostOps0]; after_results <;> rfl

/-- The context weights, transposed. -/
theorem V_WcT (c : Dev nD) :
    (V m c main_v2 : S512x512.Idx → EReal)
      = transpose S512x512 [1, 0] (m ((c : Thread nD τ).loc main_arg5)) transposes_S512x512_S512x512_1_0 := by
  dsimp only [Gen.V, Gen.hostOps0]; after_results <;> rfl

/-! ## Which block each window reads at point t -/

/-- The printed index maps over the 32 points: the three batch-blocked inputs and both outputs are at block t on the
    batch axis and block 0 elsewhere; the weights and biases are always at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0
    ∧ win0_8.index t (0 : Fin 2) = t.val ∧ win0_8.index t (1 : Fin 2) = 0 :=
  (by decide +kernel : ∀ t : Fin grid0.N, _)

section
variable (c : Dev nD) (t : Fin cfg0.N)

/-- The hidden-state block: row b of the block is batch row 16·t + b. -/
theorem hidden_blk (b : Fin 16) (a : Fin 128) (k : Fin 512) (B : Fin 512) (hB : B.val = t.val * 16 + b.val) :
    iblk m c 0 t (ix3 b a k) = (m ((c : Thread nD τ).loc main_arg0) : S512x128x512.Idx → EReal) (ix3 B a k) := by
  show V m c main_arg0 (((cfg0.win 0).blk t).view.emb (ix3 b a k)) = _
  rw [V_main_arg0]
  obtain ⟨e0, e1, e2, -⟩ := idx_facts t
  refine congrArg _ (funext fun d => Fin.ext ?_)
  match d with
  | ⟨0, _⟩ => show win0_0.index t (0 : Fin 3) * 16 + 1 * b.val = B.val; omega
  | ⟨1, _⟩ => show win0_0.index t (1 : Fin 3) * 128 + 1 * a.val = a.val; omega
  | ⟨2, _⟩ => show win0_0.index t (2 : Fin 3) * 512 + 1 * k.val = k.val; omega

/-- The context-row block. -/
theorem context_blk (b : Fin 16) (k : Fin 512) (B : Fin 512) (hB : B.val = t.val * 16 + b.val) :
    iblk m c 1 t (ix2 b k) = (m ((c : Thread nD τ).loc main_arg1) : S512x512.Idx → EReal) (ix2 B k) := by
  show V m c main_arg1 (((cfg0.win 1).blk t).view.emb (ix2 b k)) = _
  rw [V_main_arg1]
  obtain ⟨-, -, -, e0, e1, -⟩ := idx_facts t
  refine congrArg _ (funext fun d => Fin.ext ?_)
  match d with
  | ⟨0, _⟩ => show win0_1.index t (0 : Fin 2) * 16 + 1 * b.val = B.val; omega
  | ⟨1, _⟩ => show win0_1.index t (1 : Fin 2) * 512 + 1 * k.val = k.val; omega

/-- The availability block: the number 0 or 1 of the bit at batch row 16·t + b, agent a. -/
theorem avail_blk (b : Fin 16) (a : Fin 128) (B : Fin 512) (hB : B.val = t.val * 16 + b.val) :
    (iblk m c 2 t (ix2 b a) : EReal)
      = ((((m ((c : Thread nD τ).loc main_arg2) : S512x128.Idx → BitVec 1) (ix2 B a)).toNat : ℝ) : EReal) := by
  show V m c main_v0 (((cfg0.win 2).blk t).view.emb (ix2 b a)) = _
  rw [V_avail]
  obtain ⟨-, -, -, -, -, e0, e1, -⟩ := idx_facts t
  have he : ((cfg0.win 2).blk t).view.emb (ix2 b a) = ix2 B a := funext fun d => Fin.ext (by
    match d with
    | ⟨0, _⟩ => show win0_2.index t (0 : Fin 2) * 16 + 1 * b.val = B.val; omega
    | ⟨1, _⟩ => show win0_2.index t (1 : Fin 2) * 128 + 1 * a.val = a.val; omega)
  rw [he]
  rfl

/-- The feature weights as the kernel finds them: entry (k, o) is W_f (o, k). -/
theorem featW_blk (k o : Fin 512) :
    iblk m c 3 t (ix2 k o) = (m ((c : Thread nD τ).loc main_arg3) : S512x512.Idx → EReal) (ix2 o k) := by
  show V m c main_v1 (((cfg0.win 3).blk t).view.emb (ix2 k o)) = _
  rw [V_WfT]
  obtain ⟨-, -, -, -, -, -, -, e0, e1, -⟩ := idx_facts t
  have he : ((cfg0.win 3).blk t).view.emb (ix2 k o) = ix2 k o := funext fun d => Fin.ext (by
    match d with
    | ⟨0, _⟩ => show win0_3.index t (0 : Fin 2) * 512 + 1 * k.val = k.val; omega
    | ⟨1, _⟩ => show win0_3.index t (1 : Fin 2) * 512 + 1 * o.val = o.val; omega)
  rw [he]
  exact Cert.LibJoinedRows.transpose2_apply transposes_S512x512_S512x512_1_0 _ k o

/-- The feature bias. -/
theorem featB_blk (o : Fin 512) :
    iblk m c 4 t (ix1 o) = (m ((c : Thread nD τ).loc main_arg4) : S512.Idx → EReal) (ix1 o) := by
  show V m c main_arg4 (((cfg0.win 4).blk t).view.emb (ix1 o)) = _
  rw [V_main_arg4]
  obtain ⟨-, -, -, -, -, -, -, -, -, e0, -⟩ := idx_facts t
  refine congrArg _ (funext fun d => Fin.ext ?_)
  match d with
  | ⟨0, _⟩ => show win0_4.index t (0 : Fin 1) * 512 + 1 * o.val = o.val; omega

/-- The context weights as the kernel finds them: entry (k, o) is W_c (o, k). -/
theorem ctxW_blk (k o : Fin 512) :
    iblk m c 5 t (ix2 k o) = (m ((c : Thread nD τ).loc main_arg5) : S512x512.Idx → EReal) (ix2 o k) := by
  show V m c main_v2 (((cfg0.win 5).blk t).view.emb (ix2 k o)) = _
  rw [V_WcT]
  obtain ⟨-, -, -, -, -, -, -, -, -, -, e0, e1, -⟩ := idx_facts t
  have he : ((cfg0.win 5).blk t).view.emb (ix2 k o) = ix2 k o := funext fun d => Fin.ext (by
    match d with
    | ⟨0, _⟩ => show win0_5.index t (0 : Fin 2) * 512 + 1 * k.val = k.val; omega
    | ⟨1, _⟩ => show win0_5.index t (1 : Fin 2) * 512 + 1 * o.val = o.val; omega)
  rw [he]
  exact Cert.LibJoinedRows.transpose2_apply transposes_S512x512_S512x512_1_0 _ k o

/-- The context bias. -/
theorem ctxB_blk (o : Fin 512) :
    iblk m c 6 t (ix1 o) = (m ((c : Thread nD τ).loc main_arg6) : S512.Idx → EReal) (ix1 o) := by
  show V m c main_arg6 (((cfg0.win 6).blk t).view.emb (ix1 o)) = _
  rw [V_main_arg6]
  obtain ⟨-, -, -, -, -, -, -, -, -, -, -, -, e0, -⟩ := idx_facts t
  refine congrArg _ (funext fun d => Fin.ext ?_)
  match d with
  | ⟨0, _⟩ => show win0_6.index t (0 : Fin 1) * 512 + 1 * o.val = o.val; omega

/-- ON ONE BLOCK the kernel's first stored value is the specification's gated embedding at batch row 16·t + b. -/
theorem gated_blk (b : Fin 16) (a : Fin 128) (o : Fin 512) (B : Fin 512) (hB : B.val = t.val * 16 + b.val) :
    k0_pay2 (F := Ideal) (iblk m c 0 t) (iblk m c 3 t) (iblk m c 4 t) (iblk m c 1 t) (iblk m c 5 t) (iblk m c 6 t) (ix3 b a o)
      = gated (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) B a o := by
  refine (Cert.Gating.Kernel.pay2_at (iblk m c 0 t) (iblk m c 3 t) (iblk m c 4 t) (iblk m c 1 t) (iblk m c 5 t) (iblk m c 6 t) b a o).trans ?_
  unfold gated feature ctxLayer
  refine congrArg₂ (· * ·) (congrArg₂ (· + ·) (Finset.sum_congr rfl fun k _ => congrArg₂ (· * ·) ?_ ?_) ?_)
    (congrArg₂ (· + ·) (Finset.sum_congr rfl fun k _ => congrArg₂ (· * ·) ?_ ?_) ?_)
  · exact hidden_blk m c t b a k B hB
  · exact featW_blk m c t k o
  · exact featB_blk m c t o
  · exact context_blk m c t b k B hB
  · exact ctxW_blk m c t k o
  · exact ctxB_blk m c t o

end

/-! ## What each point writes back -/

/-- POINT t WRITES BACK block t of the gated embeddings. -/
theorem flushed_embeddings (c : Dev nD) (t : Fin cfg0.N) :
    (dats m 0 c).flushed 7 t = ((cfg0.win 7).blk t).view.read (Elt Ideal)
      (embeddings (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6))) := by
  rw [Value.flushed7]
  unfold out0_7
  rw [View.canon_unit_zero hz3]
  simp only [View.ld_unit_zero (S := S16x128x512) hz3, View.ld_unit_zero (S := S512x512) hz2,
    View.ld_unit_zero (S := S512) hz1, View.ld_unit_zero (S := S16x512) hz2]
  funext y
  obtain ⟨b, a, o, rfl⟩ : ∃ (b : Fin 16) (a : Fin 128) (o : Fin 512), y = ix3 b a o := ⟨y 0, y 1, y 2, eq_ix3 y⟩
  obtain ⟨-, -, -, -, -, -, -, -, -, -, -, -, -, e0, e1, e2, -⟩ := idx_facts t
  have hB : t.val * 16 + b.val < 512 := by
    have ht : t.val < 32 := Nat.lt_of_lt_of_eq t.isLt (show cfg0.N = 32 from N_0)
    have hb : b.val < 16 := b.isLt
    omega
  have he : ((cfg0.win 7).blk t).view.emb (ix3 b a o) = ix3 (⟨t.val * 16 + b.val, hB⟩ : Fin 512) a o := funext fun d => Fin.ext (by
    match d with
    | ⟨0, _⟩ => show win0_7.index t (0 : Fin 3) * 16 + 1 * b.val = t.val * 16 + b.val; omega
    | ⟨1, _⟩ => show win0_7.index t (1 : Fin 3) * 128 + 1 * a.val = a.val; omega
    | ⟨2, _⟩ => show win0_7.index t (2 : Fin 3) * 512 + 1 * o.val = o.val; omega)
  show k0_pay2 (F := Ideal) (iblk m c 0 t) (iblk m c 3 t) (iblk m c 4 t) (iblk m c 1 t) (iblk m c 5 t) (iblk m c 6 t) (ix3 b a o)
    = embeddings _ _ _ _ _ _ (((cfg0.win 7).blk t).view.emb (ix3 b a o))
  rw [he]
  exact gated_blk m c t b a o ⟨t.val * 16 + b.val, hB⟩ rfl

/-- POINT t WRITES BACK block t of the context output: the maximum over the agents of the arithmetic mask, which the mask
    law makes the selection. -/
theorem flushed_contextOut (c : Dev nD) (t : Fin cfg0.N) :
    (dats m 0 c).flushed 8 t = ((cfg0.win 8).blk t).view.read (Elt Ideal)
      (contextOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) := by
  rw [Value.flushed8]
  unfold out0_8
  rw [View.canon_unit_zero hz2]
  simp only [View.ld_unit_zero (S := S16x128x512) hz3, View.ld_unit_zero (S := S512x512) hz2,
    View.ld_unit_zero (S := S512) hz1, View.ld_unit_zero (S := S16x512) hz2, View.ld_unit_zero (S := S16x128) hz2]
  funext y
  obtain ⟨b, o, rfl⟩ : ∃ (b : Fin 16) (o : Fin 512), y = ix2 b o := ⟨y 0, y 1, eq_ix2 y⟩
  obtain ⟨-, -, -, -, -, -, -, -, -, -, -, -, -, -, -, -, e0, e1⟩ := idx_facts t
  have hB : t.val * 16 + b.val < 512 := by
    have ht : t.val < 32 := Nat.lt_of_lt_of_eq t.isLt (show cfg0.N = 32 from N_0)
    have hb : b.val < 16 := b.isLt
    omega
  have he : ((cfg0.win 8).blk t).view.emb (ix2 b o) = ix2 (⟨t.val * 16 + b.val, hB⟩ : Fin 512) o := funext fun d => Fin.ext (by
    match d with
    | ⟨0, _⟩ => show win0_8.index t (0 : Fin 2) * 16 + 1 * b.val = t.val * 16 + b.val; omega
    | ⟨1, _⟩ => show win0_8.index t (1 : Fin 2) * 512 + 1 * o.val = o.val; omega)
  show k0_pay1 (F := Ideal) (k0_pay3 (F := Ideal) (iblk m c 0 t) (iblk m c 3 t) (iblk m c 4 t) (iblk m c 1 t) (iblk m c 5 t)
      (iblk m c 6 t) (iblk m c 2 t)) (ix2 b o)
    = contextOut _ _ _ _ _ _ _ (((cfg0.win 8).blk t).view.emb (ix2 b o))
  rw [he]
  refine (Cert.Gating.Kernel.pay1_at _ b o).trans ?_
  show Finset.fold max _ _ Finset.univ = Finset.fold max bottom _ Finset.univ
  refine congrArg (fun f : Fin 128 → EReal => Finset.fold max (Ideal.ofBits .f32 0xFF800000#32) f Finset.univ) (funext fun n => ?_)
  refine (Cert.Gating.Kernel.pay3_at (iblk m c 0 t) (iblk m c 3 t) (iblk m c 4 t) (iblk m c 1 t) (iblk m c 5 t) (iblk m c 6 t)
    (iblk m c 2 t) b n o).trans ?_
  rw [gated_blk m c t b n o ⟨t.val * 16 + b.val, hB⟩ rfl, avail_blk m c t b n ⟨t.val * 16 + b.val, hB⟩ rfl]
  exact Cert.LibArithMask.mask_law _ _ _

/-! ## The blocks tile each result array -/

theorem mem_blk7 (t : Fin cfg0.N) (i : S512x128x512.Idx) :
    i ∈ ((cfg0.win 7).blk t).view.set ↔ ∀ a : Fin 3, win0_7.index t a * S16x128x512.size a ≤ (i a).val
      ∧ (i a).val < win0_7.index t a * S16x128x512.size a + S16x128x512.size a := by
  show i ∈ ((View.whole main_v3_0).slice (win0_7.rect t)).set ↔ _
  rw [View.set_slice_whole, Rect.mem_set_unit]
  exact Iff.rfl

theorem mem_blk8 (t : Fin cfg0.N) (i : S512x512.Idx) :
    i ∈ ((cfg0.win 8).blk t).view.set ↔ ∀ a : Fin 2, win0_8.index t a * S16x512.size a ≤ (i a).val
      ∧ (i a).val < win0_8.index t a * S16x512.size a + S16x512.size a := by
  show i ∈ ((View.whole main_v3_1).slice (win0_8.rect t)).set ↔ _
  rw [View.set_slice_whole, Rect.mem_set_unit]
  exact Iff.rfl

/-- Batch row r of the first result lies in block r / 16. -/
theorem cover7 (i : S512x128x512.Idx) : ∃ t : Fin cfg0.N, (cfg0.win 7).flush t = true ∧ i ∈ ((cfg0.win 7).blk t).view.set := by
  have h0 : (i 0).val < 512 := (i 0).isLt
  have h1 : (i 1).val < 128 := (i 1).isLt
  have h2 : (i 2).val < 512 := (i 2).isLt
  have hN : cfg0.N = 32 := N_0
  refine ⟨⟨(i 0).val / 16, by rw [hN]; omega⟩, flush0_7 _, ?_⟩
  rw [mem_blk7]
  obtain ⟨-, -, -, -, -, -, -, -, -, -, -, -, -, e0, e1, e2, -⟩ := idx_facts ⟨(i 0).val / 16, by rw [hN]; omega⟩
  intro a
  match a with
  | ⟨0, _⟩ =>
    show win0_7.index _ (0 : Fin 3) * 16 ≤ (i 0).val ∧ (i 0).val < win0_7.index _ (0 : Fin 3) * 16 + 16
    rw [e0]; show (i 0).val / 16 * 16 ≤ (i 0).val ∧ (i 0).val < (i 0).val / 16 * 16 + 16; omega
  | ⟨1, _⟩ =>
    show win0_7.index _ (1 : Fin 3) * 128 ≤ (i 1).val ∧ (i 1).val < win0_7.index _ (1 : Fin 3) * 128 + 128
    rw [e1]; omega
  | ⟨2, _⟩ =>
    show win0_7.index _ (2 : Fin 3) * 512 ≤ (i 2).val ∧ (i 2).val < win0_7.index _ (2 : Fin 3) * 512 + 512
    rw [e2]; omega

/-- Row r of the second result lies in block r / 16. -/
theorem cover8 (i : S512x512.Idx) : ∃ t : Fin cfg0.N, (cfg0.win 8).flush t = true ∧ i ∈ ((cfg0.win 8).blk t).view.set := by
  have h0 : (i 0).val < 512 := (i 0).isLt
  have h1 : (i 1).val < 512 := (i 1).isLt
  have hN : cfg0.N = 32 := N_0
  refine ⟨⟨(i 0).val / 16, by rw [hN]; omega⟩, flush0_8 _, ?_⟩
  rw [mem_blk8]
  obtain ⟨-, -, -, -, -, -, -, -, -, -, -, -, -, -, -, -, e0, e1⟩ := idx_facts ⟨(i 0).val / 16, by rw [hN]; omega⟩
  intro a
  match a with
  | ⟨0, _⟩ =>
    show win0_8.index _ (0 : Fin 2) * 16 ≤ (i 0).val ∧ (i 0).val < win0_8.index _ (0 : Fin 2) * 16 + 16
    rw [e0]; show (i 0).val / 16 * 16 ≤ (i 0).val ∧ (i 0).val < (i 0).val / 16 * 16 + 16; omega
  | ⟨1, _⟩ =>
    show win0_8.index _ (1 : Fin 2) * 512 ≤ (i 1).val ∧ (i 1).val < win0_8.index _ (1 : Fin 2) * 512 + 512
    rw [e1]; omega

/-! ## The two result arrays, and the run -/

/-- The first result array ends as the gated embeddings of the arguments. -/
theorem final_embeddings (c : Dev nD) : (dats m 0 c).arrAt 7 cfg0.N
    = embeddings (m ((c : Thread nD τ).loc main_arg0)) (m ((c : Thread nD τ).loc main_arg1)) (m ((c : Thread nD τ).loc main_arg3))
        (m ((c : Thread nD τ).loc main_arg4)) (m ((c : Thread nD τ).loc main_arg5)) (m ((c : Thread nD τ).loc main_arg6)) :=
  (dats m 0 c).arrAt_eq_of_cover 7 _ (fun t _ => flushed_embeddings m c t) cover7

/-- The second result array ends as the context output of the arguments. -/
theorem final_contextOut (c : Dev nD) : (dats m 0 c).arrAt 8 cfg0.N
    = contextOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) :=
  (dats m 0 c).arrAt_eq_of_cover 8 _ (fun t _ => flushed_contextOut m c t) cover8

/-- The kernel's run with both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v3_0)
        = embeddings (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6))
      ∧ r.2.mem ((c : Thread nD τ).loc main_v3_1)
        = contextOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_embeddings m c), (h c).2.1.trans (final_contextOut m c), (h c).2.2⟩)
    (Value.run_blocks m ρ)

end Cert.Gating.Blocks

end
-- ==== Proof.RefIsSpec.lean ====
/-
  The reference program computes the two functions of the specification.

  Its first result is built as: a contraction of the hidden states' last axis against the second axis of `W_f`, the bias
  `b_f` spread over batch and agents and added; the same for one context row against `W_c` with `b_c`; the second spread
  over the agents and multiplied in.  Read at (b, a, o) every spreading step keeps the coordinates it is given, so the
  entry is  (Σ_k hidden (b, a, k) · W_f (o, k) + b_f (o)) · (Σ_k context (b, k) · W_c (o, k) + b_c (o)).

  Its second result is a maximum over the middle (agent) axis, started from −∞, of the array "gated value where the
  availability bit — spread along the channel axis — is set, else the fill".  A maximum over one axis read at (b, o) is
  the maximum over that axis's coordinates `n` of the source at (b, n, o), in any order since `max` is commutative and
  associative.
-/
import proofs.«106892_j22101901705855_2_alg».proof.Proof.Gen.ReferenceIdeal.Read
import proofs.«106892_j22101901705855_2_alg».proof.Proof.Spec
import proofs.«106892_j22101901705855_2_alg».proof.Proof.LibMiddleAxis

noncomputable section

namespace Cert.Gating.Ref

open Cert.ReferenceIdeal Cert.ReferenceIdeal.Gen Cert.ReferenceIdeal.Read
open Idealize.ShloMosaic Idealize.ShloMosaic.ValueIdx Cert.Gating

variable (x0 : S512x128x512.Idx → EReal) (x1 : S512x512.Idx → EReal) (x2 : S512x128.Idx → BitVec 1)
  (x3 : S512x512.Idx → EReal) (x4 : S512.Idx → EReal) (x5 : S512x512.Idx → EReal) (x6 : S512.Idx → EReal)

/-- The reference's product stage, entry by entry, is the gated embedding. -/
theorem gated_at (b : Fin 512) (a : Fin 128) (o : Fin 512) :
    val_main_v10 (F := Ideal) x0 x1 x3 x4 x5 x6 (ix3 b a o) = gated x0 x1 x3 x4 x5 x6 b a o := by
  rw [val_main_v10_apply, val_main_v3_apply, val_main_v0_apply, val_main_v2_apply, val_main_v1_apply,
    val_main_v9_apply, val_main_v8_apply, val_main_v7_apply, val_main_v4_apply, val_main_v6_apply, val_main_v5_apply]
  -- the contraction reads the hidden row (b, a) against row o of the first weight matrix
  have eL : ∀ k : Fin 512, lidx_main_v0 (ix3 b a o) k = ix3 b a k := fun k => funext fun d => by
    match d with | ⟨0, _⟩ => rfl | ⟨1, _⟩ => rfl | ⟨2, _⟩ => rfl
  have eR : ∀ k : Fin 512, ridx_main_v0 (ix3 b a o) k = ix2 o k := fun k => funext fun d => by
    match d with | ⟨0, _⟩ => rfl | ⟨1, _⟩ => rfl
  -- the bias spread over batch and agents is read at the channel
  have eB : idx_main_v1 (idx_main_v2 (ix3 b a o)) = ix1 o := funext fun d => by
    match d with | ⟨0, _⟩ => rfl
  -- the context layer, spread over the agents, is read at (b, o)
  have eL' : ∀ k : Fin 512, lidx_main_v4 (idx_main_v8 (idx_main_v9 (ix3 b a o))) k = ix2 b k := fun k => funext fun d => by
    match d with | ⟨0, _⟩ => rfl | ⟨1, _⟩ => rfl
  have eR' : ∀ k : Fin 512, ridx_main_v4 (idx_main_v8 (idx_main_v9 (ix3 b a o))) k = ix2 o k := fun k => funext fun d => by
    match d with | ⟨0, _⟩ => rfl | ⟨1, _⟩ => rfl
  have eB' : idx_main_v5 (idx_main_v6 (idx_main_v8 (idx_main_v9 (ix3 b a o)))) = ix1 o := funext fun d => by
    match d with | ⟨0, _⟩ => rfl
  simp only [eL, eR, eB, eL', eR', eB']
  rfl

/-- The reference's first result is the specification's. -/
theorem embeddings_eq : val_main_v10 (F := Ideal) x0 x1 x3 x4 x5 x6 = embeddings x0 x1 x3 x4 x5 x6 := by
  funext i
  obtain ⟨b, a, o, rfl⟩ : ∃ (b : Fin 512) (a : Fin 128) (o : Fin 512), i = ix3 b a o := ⟨i 0, i 1, i 2, eq_ix3 i⟩
  exact gated_at x0 x1 x3 x4 x5 x6 b a o

/-- The array the reference takes its maximum of: at (b, n, o), what agent `n` offers. -/
theorem offered_at (b : Fin 512) (n : Fin 128) (o : Fin 512) :
    val_main_v12 (F := Ideal) x0 x1 x2 x3 x4 x5 x6 (ix3 b n o) = offered x0 x1 x2 x3 x4 x5 x6 b n o := by
  rw [val_main_v12_apply, val_main_call0_v0_apply, val_main_v11_apply, val_main_call0_v1_apply, val_main_cst_apply,
    gated_at]
  have eA : idx_main_v11 (idx_main_call0_v0 (ix3 b n o)) = ix2 b n := funext fun d => by
    match d with | ⟨0, _⟩ => rfl | ⟨1, _⟩ => rfl
  rw [eA]
  rfl

/-- The reference's second result is the specification's. -/
theorem contextOut_eq : val_main_v13 (F := Ideal) x0 x1 x2 x3 x4 x5 x6 = contextOut x0 x1 x2 x3 x4 x5 x6 := by
  funext j
  obtain ⟨b, o, rfl⟩ : ∃ (b o : Fin 512), j = ix2 b o := ⟨j 0, j 1, eq_ix2 j⟩
  have hR : S512x128x512.Reduces [1] S512x512 := by decide
  unfold val_main_v13
  rw [Host.reduce_eq_fold_single FloatOps.maximumf _ _ reducesTo_S512x128x512_S512x512_d1 hR h_S_ (ix2 b o)]
  have hsrc : (val_main_v12 (F := Ideal) x0 x1 x2 x3 x4 x5 x6 ∘ hR.lift (ix2 b o))
      = fun n : Fin 128 => offered x0 x1 x2 x3 x4 x5 x6 b n o := funext fun n => by
    show val_main_v12 (F := Ideal) x0 x1 x2 x3 x4 x5 x6 (hR.lift (ix2 b o) n) = _
    rw [LibMiddleAxis.lift_middle hR b o n]
    exact offered_at x0 x1 x2 x3 x4 x5 x6 b n o
  rw [hsrc]
  rfl

end Cert.Gating.Ref

end
-- ==== Proof.lean ====
/-
  Context gating: a Pallas kernel against its jnp reference, equal over the extended reals.

  Both programs take hidden states [512, 128, 512] (batch × agents × channels), a context embedding [512, 512],
  availability bits [512, 128], and two linear layers (W_f, b_f) and (W_c, b_c), and return two arrays:

    gated (b, a, o) = (Σ_k hidden (b, a, k) · W_f (o, k) + b_f (o)) · (Σ_k context (b, k) · W_c (o, k) + b_c (o)),
    out (b, o)      = the maximum over the agents a, started from −∞, of gated (b, a, o) where agent a of batch row b is
                      available and of the most negative finite single-precision number where it is not.

  The reference contracts the hidden axis against the second axis of each weight matrix and selects on the availability
  bit.  The kernel works on blocks of 16 batch rows: it multiplies the block, viewed as 2048 rows, by the weight matrix
  transposed beforehand, in a narrower float format (a change of format is the identity on extended reals, and a
  matrix-unit product into zero is the same sum as the reference's contraction), and it masks by arithmetic on the bit
  read as the number m ∈ {0, 1}:  gated · m + (1 − m) · fill.  That equals the selection for every extended real value of
  `gated` (LibArithMask.lean, `mask_law`: only x · 1 = x, x · 0 = 0 · x = 0 and x + 0 = 0 + x = x are used), so the inputs'
  finiteness is not needed for the equality; the precondition is only carried.

  Spec.lean states the two result functions; RefIsSpec.lean shows the reference computes them; KernelEntries.lean reads
  the kernel body's stored values entry by entry; Blocks.lean passes from the 32 blocks to the whole arrays.  Here the
  kernel's run and the reference's run are set side by side on memories that agree on the seven arguments.
  Read over the extended reals the kernel is its own text with no operation replaced, so the preservation conjunct is `True`.
-/
import proofs.«106892_j22101901705855_2_alg».proof.Defs
import proofs.«106892_j22101901705855_2_alg».proof.Proof.Gen.Kernel
import proofs.«106892_j22101901705855_2_alg».proof.Proof.Gen.Kernel.Skeleton
import proofs.«106892_j22101901705855_2_alg».proof.Proof.Gen.Kernel.Launch
import proofs.«106892_j22101901705855_2_alg».proof.Proof.Gen.Kernel.Points
import proofs.«106892_j22101901705855_2_alg».proof.Proof.Gen.Kernel.Frame
import proofs.«106892_j22101901705855_2_alg».proof.Proof.Gen.KernelIdeal
import proofs.«106892_j22101901705855_2_alg».proof.Proof.Gen.KernelIdeal.Skeleton
import proofs.«106892_j22101901705855_2_alg».proof.Proof.Gen.KernelIdeal.Launch
import proofs.«106892_j22101901705855_2_alg».proof.Proof.Gen.KernelIdeal.Points
import proofs.«106892_j22101901705855_2_alg».proof.Proof.Gen.KernelIdeal.Frame
import proofs.«106892_j22101901705855_2_alg».proof.Proof.Gen.ReferenceIdeal
import proofs.«106892_j22101901705855_2_alg».proof.Proof.Gen.Pre_finite_inputs
import proofs.«106892_j22101901705855_2_alg».proof.Proof.Gen.KernelIdeal.Value
import proofs.«106892_j22101901705855_2_alg».proof.Proof.Gen.ReferenceIdeal.Run
import proofs.«106892_j22101901705855_2_alg».proof.Proof.Gen.ReferenceIdeal.Read
import proofs.«106892_j22101901705855_2_alg».proof.Proof.Blocks
import proofs.«106892_j22101901705855_2_alg».proof.Proof.RefIsSpec
import Idealize.ShloMosaic.Adequacy
import Idealize.ShloMosaic.Init

noncomputable section

namespace Cert.Proof

open Idealize.ShloMosaic Idealize.SL.Sem Cert.Kernel

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end and leaves its arguments as they were: its run, the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the seven arguments both programs end with the gated embeddings and the context output
    of those arguments: the kernel by its blocks (Blocks.lean), the reference by its operations read one at a time
    (RefIsSpec.lean). -/
theorem algebraic : Cert.algebraic_KernelIdeal_ReferenceIdeal := by
  intro m ρ m' ρ' _ hagree
  refine ⟨_, _, Cert.Gating.Blocks.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v10_eq, Cert.Gating.Ref.embeddings_eq, (hagree c).1, (hagree c).2.1,
      (hagree c).2.2.2.1, (hagree c).2.2.2.2.1, (hagree c).2.2.2.2.2.1, (hagree c).2.2.2.2.2.2]
  · rw [(h c).2.1, Cert.ReferenceIdeal.Read.val_main_v13_eq, Cert.Gating.Ref.contextOut_eq, (hagree c).1, (hagree c).2.1,
      (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
